-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000 : Shape := ⟨1, ![2000000]⟩
abbrev S2000000x128 : Shape := ⟨2, ![2000000, 128]⟩
abbrev S128x1 : Shape := ⟨2, ![128, 1]⟩
abbrev S1 : Shape := ⟨1, ![1]⟩
abbrev S_ : Shape := ⟨0, ![]⟩

class Facts : Prop where
  bcast_S_S2000000x128 : S_.BroadcastsInDim S2000000x128 (![] : Fin 0 → Fin S2000000x128.rank)
  reducesTo_S2000000x128_S_d0_1 : S2000000x128.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : IVec S2000000 32) (main_arg1 : FVec F S2000000x128 .f32) (main_arg2 : FVec F S128x1 .f32) (main_arg3 : FVec F S1 .f32) : IVec S_ 1 :=
  let main_v0 : FVec F S2000000x128 .f32 := Host.absf main_arg1
  let main_cst : FVec F S_ .f32 := constant S_ .f32 0x7F800000#32
  let main_v1 : FVec F S2000000x128 .f32 := broadcastInDim S2000000x128 ![] bcast_S_S2000000x128 main_cst
  let main_v2 : IVec S2000000x128 1 := cmpf .olt main_v0 main_v1
  let main_c : IVec S_ 1 := constantI S_ 1 1#1
  let main_v3 : IVec S_ 1 := (fun x v => Host.reduce IntOp.andi x v reducesTo_S2000000x128_S_d0_1 h_S_) main_v2 main_c
  let main_v4 : FVec F S128x1 .f32 := Host.absf main_arg2
  let main_cst_0 : FVec F S_ .f32 := constant S_ .f32 0x7F800000#32
  let main_v5 : FVec F S128x1 .f32 := broadcastInDim S128x1 ![] bcast_S_S128x1 main_cst_0
  let main_v6 : IVec S128x1 1 := cmpf .olt main_v4 main_v5
  let main_c_1 : IVec S_ 1 := constantI S_ 1 1#1
  let main_v7 : IVec S_ 1 := (fun x v => Host.reduce IntOp.andi x v reducesTo_S128x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S2000000 : Shape := ⟨1, ![2000000]⟩
abbrev S2000000x128 : Shape := ⟨2, ![2000000, 128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S2000000x1 : Shape := ⟨2, ![2000000, 1]⟩
abbrev S8000x128 : Shape := ⟨2, ![8000, 128]⟩
abbrev S8000x1 : Shape := ⟨2, ![8000, 1]⟩
abbrev S8000 : Shape := ⟨1, ![8000]⟩
abbrev S_ : Shape := ⟨0, ![]⟩
abbrev S50000 : Shape := ⟨1, ![50000]⟩

abbrev nBuf : Space → Nat
  | .hbm => 33
  | .vmem => 6
  | .smem => 0
  | _ => 0

abbrev bufTy : (tb : Table) → Fin (tcTables nBuf tb) → BufTy
  | .hbm, ⟨0, _⟩ => ⟨S2000000, .i32⟩
  | .hbm, ⟨1, _⟩ => ⟨S2000000x128, .f32⟩
  | .hbm, ⟨2, _⟩ => ⟨S128x1, .f32⟩
  | .hbm, ⟨3, _⟩ => ⟨S1, .f32⟩
  | .hbm, ⟨4, _⟩ => ⟨S1x128, .f32⟩
  | .hbm, ⟨5, _⟩ => ⟨S1x1, .f32⟩
  | .hbm, ⟨6, _⟩ => ⟨S2000000x1, .f32⟩
  | .hbm, ⟨7, _⟩ => ⟨S2000000, .f32⟩
  | .hbm, ⟨8, _⟩ => ⟨S_, .f32⟩
  | .hbm, ⟨9, _⟩ => ⟨S50000, .f32⟩
  | .hbm, ⟨10, _⟩ => ⟨S2000000x1, .i32⟩
  | .hbm, ⟨11, _⟩ => ⟨S50000, .f32⟩
  | .hbm, ⟨12, _⟩ => ⟨S_, .f32⟩
  | .hbm, ⟨13, _⟩ => ⟨S2000000, .f32⟩
  | .hbm, ⟨14, _⟩ => ⟨S_, .f32⟩
  | .hbm, ⟨15, _⟩ => ⟨S50000, .f32⟩
  | .hbm, ⟨16, _⟩ => ⟨S2000000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S2000000, .i32⟩
  | .hbm, ⟨24, _⟩ => ⟨S2000000, .i1⟩
  | .hbm, ⟨25, _⟩ => ⟨S_, .i32⟩
  | .hbm, ⟨26, _⟩ => ⟨S2000000, .i32⟩
  | .hbm, ⟨27, _⟩ => ⟨S2000000, .i32⟩
  | .hbm, ⟨28, _⟩ => ⟨S2000000, .i32⟩
  | .hbm, ⟨29, _⟩ => ⟨S2000000x1, .i32⟩
  | .hbm, ⟨30, _⟩ => ⟨S2000000, .f32⟩
  | .hbm, ⟨31, _⟩ => ⟨S2000000, .f32⟩
  | .hbm, ⟨32, _⟩ => ⟨S2000000x1, .f32⟩
  | .local _ .vmem, ⟨0, _⟩ => ⟨S8000x128, .f32⟩
  | .local _ .vmem, ⟨1, _⟩ => ⟨S8000x128, .f32⟩
  | .local _ .vmem, ⟨2, _⟩ => ⟨S1x128, .f32⟩
  | .local _ .vmem, ⟨3, _⟩ => ⟨S1x1, .f32⟩
  | .local _ .vmem, ⟨4, _⟩ => ⟨S8000x1, .f32⟩
  | .local _ .vmem, ⟨5, _⟩ => ⟨S8000x1, .f32⟩
  | _, _ => ⟨S2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128x1_S1x128 : S128x1.ShapeCasts S1x128
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  reduces_S8000x128_S8000 : S8000x128.Reduces [1] S8000
  shapeCasts_S8000_S8000x1 : S8000.ShapeCasts S8000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S2000000x1_S2000000 : S2000000x1.ShapeCasts S2000000
  bcast_S_S50000 : S_.BroadcastsInDim S50000 (![] : Fin 0 → Fin S50000.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  shapeCasts_S2000000_S2000000x1 : S2000000.ShapeCasts S2000000x1
  scatter_S50000_S2000000x1_S2000000_n_0_0_1_wf : ScatterDims.WF S50000 S2000000x1 S2000000 [] [0] [0] 1
  gather_S50000_S2000000x1_S2000000_n_0_n_n_0_1_1_wf : GatherDims.WF S50000 S2000000x1 S2000000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S2000000x128.size a
  hwx0_0 : ∀ i : grid0.Coords, EltTy.bits .f32 = 32 ∨ (Rect.block (s := S2000000x128) S8000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x1.size a ≤ S2000000x1.size a
  hwx0_3 : ∀ i : grid0.Coords, EltTy.bits .f32 = 32 ∨ (Rect.block (s := S2000000x1) S8000x1.size (cc0_transform_3 i) (hinb0_3 i)).WholeWords (EltTy.packing .f32)

variable [Facts₀]

def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def gather_S50000_S2000000x1_S2000000_n_0_n_n_0_1_1 : GatherDims S50000 S2000000x1 S2000000 where
  offsetDims := []
  collapsedSliceDims := [0]
  operandBatchingDims := []
  startIndicesBatchingDims := []
  startIndexMap := [0]
  indexVectorDim := 1
  sliceSizes := ![1]
  wf := gather_S50000_S2000000x1_S2000000_n_0_n_n_0_1_1_wf

abbrev win0_0 : Pipeline.Window sig grid0 :=
  Pipeline.Window.ofSpec (Memref.whole main_arg1) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2000000 : Shape := ⟨1, ![2000000]⟩
abbrev S2000000x128 : Shape := ⟨2, ![2000000, 128]⟩
abbrev S128x1 : Shape := ⟨2, ![128, 1]⟩
abbrev S1 : Shape := ⟨1, ![1]⟩
abbrev S2000000x1 : Shape := ⟨2, ![2000000, 1]⟩
abbrev S1x1 : Shape := ⟨2, ![1, 1]⟩
abbrev S_ : Shape := ⟨0, ![]⟩
abbrev S50000 : Shape := ⟨1, ![50000]⟩

abbrev nBuf : Space → Nat
  | .hbm => 34
  | .vmem => 0
  | .smem => 0
  | _ => 0

abbrev bufTy : (tb : Table) → Fin (tcTables nBuf tb) → BufTy
  | .hbm, ⟨0, _⟩ => ⟨S2000000, .i32⟩
  | .hbm, ⟨1, _⟩ => ⟨S2000000x128, .f32⟩
  | .hbm, ⟨2, _⟩ => ⟨S128x1, .f32⟩
  | .hbm, ⟨3, _⟩ => ⟨S1, .f32⟩
  | .hbm, ⟨4, _⟩ => ⟨S2000000x1, .f32⟩
  | .hbm, ⟨5, _⟩ => ⟨S1x1, .f32⟩
  | .hbm, ⟨6, _⟩ => ⟨S2000000x1, .f32⟩
  | .hbm, ⟨7, _⟩ => ⟨S2000000x1, .f32⟩
  | .hbm, ⟨8, _⟩ => ⟨S2000000, .f32⟩
  | .hbm, ⟨9, _⟩ => ⟨S_, .f32⟩
  | .hbm, ⟨10, _⟩ => ⟨S50000, .f32⟩
  | .hbm, ⟨11, _⟩ => ⟨S2000000x1, .i32⟩
  | .hbm, ⟨12, _⟩ => ⟨S50000, .f32⟩
  | .hbm, ⟨13, _⟩ => ⟨S_, .f32⟩
  | .hbm, ⟨14, _⟩ => ⟨S2000000, .f32⟩
  | .hbm, ⟨15, _⟩ => ⟨S_, .f32⟩
  | .hbm, ⟨16, _⟩ => ⟨S50000, .f32⟩
  | .hbm, ⟨17, _⟩ => ⟨S2000000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S2000000, .i32⟩
  | .hbm, ⟨25, _⟩ => ⟨S2000000, .i1⟩
  | .hbm, ⟨26, _⟩ => ⟨S_, .i32⟩
  | .hbm, ⟨27, _⟩ => ⟨S2000000, .i32⟩
  | .hbm, ⟨28, _⟩ => ⟨S2000000, .i32⟩
  | .hbm, ⟨29, _⟩ => ⟨S2000000, .i32⟩
  | .hbm, ⟨30, _⟩ => ⟨S2000000x1, .i32⟩
  | .hbm, ⟨31, _⟩ => ⟨S2000000, .f32⟩
  | .hbm, ⟨32, _⟩ => ⟨S2000000, .f32⟩
  | .hbm, ⟨33, _⟩ => ⟨S2000000x1, .f32⟩
  | _, _ => ⟨S2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  shapeCasts_S2000000x1_S2000000 : S2000000x1.ShapeCasts S2000000
  bcast_S_S50000 : S_.BroadcastsInDim S50000 (![] : Fin 0 → Fin S50000.rank)
  bcast_S2000000_S2000000x1_0 : S2000000.BroadcastsInDim S2000000x1 (![0] : Fin 1 → Fin S2000000x1.rank)
  bcast_S_S2000000 : S_.BroadcastsInDim S2000000 (![] : Fin 0 → Fin S2000000.rank)
  shapeCasts_S2000000_S2000000x1 : S2000000.ShapeCasts S2000000x1
  dot_S2000000x128_S128x1_S2000000x1_1_0_0_1_n_n_wf : DotDims.WF S2000000x128 S128x1 S2000000x1 [1] [0] [0] [1] [] []
  scatter_S50000_S2000000x1_S2000000_n_0_0_1_wf : ScatterDims.WF S50000 S2000000x1 S2000000 [] [0] [0] 1
  gather_S50000_S2000000x1_S2000000_n_0_n_n_0_1_1_wf : GatherDims.WF S50000 S2000000x1 S2000000 [] [0] [] [0] [] 1 ![1]

variable [Facts₀]

def dot_S2000000x128_S128x1_S2000000x1_1_0_0_1_n_n : DotDims S2000000x128 S128x1 S2000000x1 where
  lhsContracting := [1]
  rhsContracting := [0]
  lhsNonContracting := [0]
  rhsNonContracting := [1]
  lhsBatch := []
  rhsBatch := []
  wf := dot_S2000000x128_S128x1_S2000000x1_1_0_0_1_n_n_wf
def scatter_S50000_S2000000x1_S2000000_n_0_0_1 : ScatterDims S50000 S2000000x1 S2000000 where
  updateWindowDims := []
  insertedWindowDims := [0]
  scatterDimsToOperandDims := [0]
  indexVectorDim := 1
  wf := scatter_S50000_S2000000x1_S2000000_n_0_0_1_wf
def gather_S50000_S2000000x1_S2000000_n_0_n_n_0_1_1 : GatherDims S50000 S2000000x1 S2000000 where
  offsetDims := []
  collapsedSliceDims := [0]
  operandBatchingDims := []
  startIndicesBatchingDims := []
  startIndexMap := [0]
  indexVectorDim := 1
  sliceSizes := ![1]
  wf := gather_S50000_S2000000x1_S2000000_n_0_n_n_0_1_1_wf

class Facts : Prop extends Facts₀ where

variable [Facts]
-- ==== Proof.Spec.lean ====
/-
  The charge each atom carries before the neutralising correction, as one function of the argument arrays:
  atom i's row of features against the single weight column, plus the bias,
      q i = (sum over k < 128 of p1[i, k] * W[k, 0]) + b[0],
  kept as the one-column matrix [2000000, 1] both programs form first. Over the extended reals a finite sum
  does not depend on the order or grouping of its terms, so nothing here asks the inputs to be finite.
-/
import Idealize.ShloMosaic.PureOps.Ideal
import Idealize.ShloMosaic.Lib.ValueIdx

noncomputable section

namespace Cert.Charge

open Idealize.ShloMosaic Idealize.ShloMosaic.ValueIdx

/-- The projected charge of every atom: entry (i, 0) is the dot product of row i of `p1` with the column of `W`,
    plus the bias. The column coordinate of the result has one value, and is not read. -/
def charge (p1 : FVec Ideal ⟨2, ![2000000, 128]⟩ .f32) (W : FVec Ideal ⟨2, ![128, 1]⟩ .f32) (b : FVec Ideal ⟨1, ![1]⟩ .f32) :
    FVec Ideal ⟨2, ![2000000, 1]⟩ .f32 :=
  fun i => (∑ k : Fin 128, p1 (ix2 (i 0) k) * W (ix2 k (0 : Fin 1))) + b (ix1 (0 : Fin 1))

/-- The same with the weights laid out as one row [1, 128] and the bias as a [1, 1] matrix, the layouts the
    kernel is handed. -/
def chargeRow (p1 : FVec Ideal ⟨2, ![2000000, 128]⟩ .f32) (w : FVec Ideal ⟨2, ![1, 128]⟩ .f32) (b : FVec Ideal ⟨2, ![1, 1]⟩ .f32) :
    FVec Ideal ⟨2, ![2000000, 1]⟩ .f32 :=
  fun i => (∑ k : Fin 128, p1 (ix2 (i 0) k) * w (ix2 (0 : Fin 1) k)) + b (ix2 (0 : Fin 1) (0 : Fin 1))

/-- Relaying the weights as a row and the bias as a 1 × 1 matrix changes nothing: if the row holds the column's
    entries and the matrix the bias, the two forms are one function. -/
theorem chargeRow_eq (p1 : FVec Ideal ⟨2, ![2000000, 128]⟩ .f32) (W : FVec Ideal ⟨2, ![128, 1]⟩ .f32) (b : FVec Ideal ⟨1, ![1]⟩ .f32)
    (w : FVec Ideal ⟨2, ![1, 128]⟩ .f32) (b2 : FVec Ideal ⟨2, ![1, 1]⟩ .f32)
    (hw : ∀ k : Fin 128, w (ix2 (0 : Fin 1) k) = W (ix2 k (0 : Fin 1))) (hb : b2 (ix2 (0 : Fin 1) (0 : Fin 1)) = b (ix1 (0 : Fin 1))) :
    chargeRow p1 w b2 = charge p1 W b := by
  funext i
  unfold chargeRow charge
  rw [hb]
  exact congrArg (· + b (ix1 (0 : Fin 1))) (Finset.sum_congr rfl fun k _ => by rw [hw k])

end Cert.Charge

end
-- ==== Proof.Tail.lean ====
/-
  The correction both programs apply to the column of atom charges `q`, as one function of the atom-to-molecule
  ids and of `q`: flatten q to a vector; add up the charges of each molecule's atoms (an accumulating scatter into
  50000 zeros, by id) and count each molecule's atoms (the same scatter of ones); divide each molecule's total by
  its count, or by one when it has no atom; read each atom's share back through its id (a negative id wrapped by
  50000) and take it from the atom's charge; stand the result up as a column again. The two programs spell these
  steps with the same operations and the same constants, so the correction is written once and never opened: two
  equal columns of charges give equal corrected columns.
-/
import proofs.«100045_j5918464934539_1_alg».proof.Proof.Gen.KernelIdeal
import Idealize.ShloMosaic.PureOps.Ideal

noncomputable section

namespace Cert.Charge

open Cert.KernelIdeal Cert.KernelIdeal.Gen Idealize.ShloMosaic Idealize.ShloMosaic.TcCoe

/-- The neutralised charges, from the ids and the column of charges. -/
def neutralise (ids : IVec S2000000 32) (q : FVec Ideal S2000000x1 .f32) : FVec Ideal S2000000x1 .f32 :=
  shapeCast _ (subf (F := Ideal) (shapeCast _ q shapeCasts_S2000000x1_S2000000) (Host.gather gather_S50000_S2000000x1_S2000000_n_0_n_n_0_1_1 (Host.divf (F := Ideal) (Host.scatterAdd (F := Ideal) scatter_S50000_S2000000x1_S2000000_n_0_0_1 (broadcastInDim S50000 ![] bcast_S_S50000 (constant (F := Ideal) S_ .f32 0x00000000#32)) (broadcastInDim S2000000x1 ![0] bcast_S2000000_S2000000x1_0 ids) (shapeCast _ q shapeCasts_S2000000x1_S2000000)) (maximumf (F := Ideal) (Host.scatterAdd (F := Ideal) scatter_S50000_S2000000x1_S2000000_n_0_0_1 (broadcastInDim S50000 ![] bcast_S_S50000 (constant (F := Ideal) S_ .f32 0x00000000#32)) (broadcastInDim S2000000x1 ![0] bcast_S2000000_S2000000x1_0 ids) (broadcastInDim S2000000 ![] bcast_S_S2000000 (constant (F := Ideal) S_ .f32 0x3F800000#32))) (broadcastInDim S50000 ![] bcast_S_S50000 (constant (F := Ideal) S_ .f32 0x3F800000#32)))) (broadcastInDim S2000000x1 ![0] bcast_S2000000_S2000000x1_0 (select (cmpi .slt ids (broadcastInDim S2000000 ![] bcast_S_S2000000 (constantI S_ 32 0#32))) (addi ids (broadcastInDim S2000000 ![] bcast_S_S2000000 (constantI S_ 32 50000#32))) ids)))) shapeCasts_S2000000_S2000000x1

end Cert.Charge

end
-- ==== Proof.RefBridge.lean ====
/-
  The reference program's result as the correction applied to the column of charges. Its first four operations
  form the column: a contraction of p1's second axis with W's first (entry (i, j) is the sum over k of
  p1[i, k] * W[k, j], and j has one value), then the bias repeated down the column and added. Everything after
  them is the correction, operation for operation.
-/
import proofs.«100045_j5918464934539_1_alg».proof.Proof.Gen.ReferenceIdeal.Read
import proofs.«100045_j5918464934539_1_alg».proof.Proof.Spec
import proofs.«100045_j5918464934539_1_alg».proof.Proof.Tail

noncomputable section

namespace Cert.Charge.Ref

open Cert.ReferenceIdeal Cert.ReferenceIdeal.Gen Cert.ReferenceIdeal.Read Idealize.ShloMosaic Idealize.ShloMosaic.ValueIdx

/-- The reference's column of charges is `charge` of its arguments: the contraction reads row i of p1 against the
    column of W, and the two broadcasts of the bias read its one entry. -/
theorem column_eq (x1 : FVec Ideal S2000000x128 .f32) (x2 : FVec Ideal S128x1 .f32) (x3 : FVec Ideal S1 .f32) :
    val_main_v3 (F := Ideal) x1 x2 x3 = charge x1 x2 x3 := by
  funext i
  rw [val_main_v3_apply, val_main_v0_apply, val_main_v2_apply, val_main_v1_apply]
  have el : ∀ k : Fin 128, lidx_main_v0 i k = ix2 (i 0) k := fun k => funext fun a => Fin.ext (by
    match a with
    | ⟨0, _⟩ => rfl
    | ⟨1, _⟩ => rfl)
  have er : ∀ k : Fin 128, ridx_main_v0 i k = ix2 k (0 : Fin 1) := fun k => funext fun a => Fin.ext (by
    match a with
    | ⟨0, _⟩ => rfl
    | ⟨1, _⟩ =>
      have h1 : (i 1).val < 1 := (i 1).isLt
      show (i 1).val = 0
      omega)
  have e3 : idx_main_v1 (idx_main_v2 i) = ix1 (0 : Fin 1) := funext fun a => Fin.ext (by
    match a with
    | ⟨0, _⟩ => rfl)
  simp only [el, er, e3]
  rfl

/-- The reference's result is the correction applied to its column of charges. -/
theorem result_eq (x0 : IVec S2000000 32) (x1 : FVec Ideal S2000000x128 .f32) (x2 : FVec Ideal S128x1 .f32) (x3 : FVec Ideal S1 .f32) :
    val_main_v23 (F := Ideal) x0 x1 x2 x3 = neutralise x0 (charge x1 x2 x3) := by
  rw [← column_eq]
  rfl

end Cert.Charge.Ref

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Body.lean ====
/-
  What the kernel body stores, read at one entry. The body takes a block of 8000 rows of p1, the weights as one row
  [1, 128] and the bias as a [1, 1] matrix; it multiplies each row of the block by the weight row entry by entry,
  adds up each row's 128 products, stands the 8000 sums up as a column and adds the bias to each. So entry (r, u) of
  what it stores is (sum over k of x0[r, k] * x1[0, k]) + x2[0, u].
-/
import proofs.«100045_j5918464934539_1_alg».proof.Proof.Gen.KernelIdeal.Skeleton
import proofs.«100045_j5918464934539_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.Charge.Body

open Cert.KernelIdeal Cert.KernelIdeal.Gen Idealize.ShloMosaic Idealize.ShloMosaic.ValueIdx

/-- Adding up a block along its second axis, from the zero word: entry r of the result is the sum of row r's 128
    entries. -/
theorem laneSum_apply (v : FVec Ideal S8000x128 .f32) (h : S8000x128.Reduces [1] S8000) (hφ : FKind.Formats .f32)
    (hacc : (0x00000000#32 : BitVec 32) = FKind.add.neutral .f32 hφ) (r : Fin 8000) :
    multiReduction (F := Ideal) .add [1] S8000 v 0x00000000#32 h hφ hacc (ix1 r) = ∑ k : Fin 128, v (ix2 r k) := by
  refine (Ideal.multiReduction_add_single v 0x00000000#32 h hφ hacc (ix1 r)).trans ?_
  refine Finset.sum_congr rfl fun k _ => congrArg v ?_
  funext a
  apply Fin.ext
  match a with
  | ⟨0, _⟩ => rfl
  | ⟨1, _⟩ => rfl

/-- Entry (r, u) of what the body stores. -/
theorem pay_apply (x0 : Vec Ideal S8000x128 .f32) (x1 : Vec Ideal S1x128 .f32) (x2 : Vec Ideal S1x1 .f32) (r : Fin 8000) (u : Fin 1) :
    k0_pay1 (F := Ideal) x0 x1 x2 (ix2 r u)
      = (∑ k : Fin 128, x0 (ix2 r k) * x1 (ix2 (0 : Fin 1) k)) + x2 (ix2 (0 : Fin 1) u) := by
  unfold k0_pay1
  dsimp only
  refine congrArg₂ (· + ·) ?_ ?_
  · refine (shapeCast_a_a1_apply _ _ r u).trans ?_
    refine (laneSum_apply _ _ _ _ r).trans ?_
    refine Finset.sum_congr rfl fun k _ => ?_
    refine congrArg (x0 (ix2 r k) * ·) ?_
    refine (broadcastTo_1b_ab_apply _ _ r k).trans ?_
    exact congrFun (shapeCast_self x1 _) (ix2 (0 : Fin 1) k)
  · refine (broadcastTo_1b_ab_apply _ _ r u).trans ?_
    exact congrFun (shapeCast_self x2 _) (ix2 (0 : Fin 1) u)

end Cert.Charge.Body

end
-- ==== Proof.KernelValue.lean ====
/-
  The kernel's run, read: the array of charges its grid leaves, and its result after the correction.
  The grid has 250 points; point t is handed rows 8000 t .. 8000 t + 7999 of p1, the whole weight row and the whole
  1 × 1 bias, and writes back rows 8000 t .. 8000 t + 7999 of the column of charges. Each entry the body stores
  depends only on its own row of p1, so what point t writes back is block t of ONE column, `chargeRow` of the arrays
  the region finds; the 250 blocks tile the column (row i lies in block i / 8000), so after the last point the
  array holds that column. The weight row and the 1 × 1 bias are W and b relaid by the two reshapes before the
  region, so the column is `charge` of the arguments. The lines after the region apply the correction to it.
-/
import proofs.«100045_j5918464934539_1_alg».proof.Proof.Gen.KernelIdeal.Frame
import proofs.«100045_j5918464934539_1_alg».proof.Proof.Body
import proofs.«100045_j5918464934539_1_alg».proof.Proof.Spec
import proofs.«100045_j5918464934539_1_alg».proof.Proof.Tail
import Idealize.ShloMosaic.Lib.Pipeline.Value
import Idealize.ShloMosaic.Lib.StableHlo.Run
import Idealize.ShloMosaic.Lib.Tactic

noncomputable section

namespace Cert.Charge.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at point t, decided over the 250 points: the p1 block and the output block are
    block t along the rows, and the weight row and the bias are the one block there is. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One stored entry against one entry of the column: if the block of p1 holds, in the entry's row, the row of the
    array the column's entry reads, and the weight row and bias blocks hold the weight row and the bias, then the
    body's entry is the column's. -/
theorem point_eq (A : FVec Ideal S2000000x128 .f32) (Wr : FVec Ideal S1x128 .f32) (B : FVec Ideal S1x1 .f32)
    (x0 : Vec Ideal S8000x128 .f32) (x1 : Vec Ideal S1x128 .f32) (x2 : Vec Ideal S1x1 .f32)
    (y : S8000x1.Idx) (i : S2000000x1.Idx)
    (h0 : ∀ k : Fin 128, x0 (ix2 (y 0) k) = A (ix2 (i 0) k))
    (h1 : ∀ k : Fin 128, x1 (ix2 (0 : Fin 1) k) = Wr (ix2 (0 : Fin 1) k))
    (h2 : x2 (ix2 (0 : Fin 1) (y 1)) = B (ix2 (0 : Fin 1) (0 : Fin 1))) :
    k0_pay1 (F := Ideal) x0 x1 x2 y = chargeRow A Wr B i := by
  refine (congrArg (k0_pay1 (F := Ideal) x0 x1 x2) (eq_ix2 y)).trans ?_
  refine (Body.pay_apply x0 x1 x2 (y 0) (y 1)).trans ?_
  unfold chargeRow
  rw [h2]
  exact congrArg (· + B (ix2 (0 : Fin 1) (0 : Fin 1))) (Finset.sum_congr rfl fun k _ => by rw [h0 k, h1 k])

/-- What point t writes back is block t of the column `chargeRow` of the arrays the region finds. -/
theorem flushed_eq (c : Dev nD) (t : Fin cfg0.N) :
    (dats m 0 c).flushed 3 t
      = ((cfg0.win 3).blk t).view.read (Elt Ideal) (chargeRow (V m c main_arg1) (V m c main_v0) (V m c main_v1)) := by
  show (cfg0.win 3).cut (grid0.coords t) ((dats m 0 c).after 3 t) = _
  rw [after0_3]
  unfold out0_3
  rw [View.canon_unit_zero hz]
  simp only [View.ld_unit_zero (S := S8000x128) hz, View.ld_unit_zero (S := S1x128) hz, View.ld_unit_zero (S := S1x1) hz]
  obtain ⟨e0, e1, e2, e3, e4, e5, e6, e7⟩ := idx_facts t
  funext j
  show k0_pay1 (iblk m c 0 t) (iblk m c 1 t) (iblk m c 2 t) j
    = chargeRow (V m c main_arg1) (V m c main_v0) (V m c main_v1) (((cfg0.win 3).blk t).view.emb j)
  refine point_eq (V m c main_arg1) (V m c main_v0) (V m c main_v1) (iblk m c 0 t) (iblk m c 1 t) (iblk m c 2 t) j
    (((cfg0.win 3).blk t).view.emb j) ?_ ?_ ?_
  · intro k
    show V m c main_arg1 (((cfg0.win 0).blk t).view.emb (ix2 (j 0) k))
      = V m c main_arg1 (ix2 ((((cfg0.win 3).blk t).view.emb j) 0) k)
    refine congrArg (V m c main_arg1) (funext fun a => Fin.ext ?_)
    match a with
    | ⟨0, _⟩ =>
      show win0_0.index t (0 : Fin 2) * 8000 + 1 * (j 0).val = win0_3.index t (0 : Fin 2) * 8000 + 1 * (j 0).val
      omega
    | ⟨1, _⟩ =>
      show win0_0.index t (1 : Fin 2) * 128 + 1 * k.val = k.val
      omega
  · intro k
    show V m c main_v0 (((cfg0.win 1).blk t).view.emb (ix2 (0 : Fin 1) k)) = V m c main_v0 (ix2 (0 : Fin 1) k)
    refine congrArg (V m c main_v0) (funext fun a => Fin.ext ?_)
    match a with
    | ⟨0, _⟩ =>
      show win0_1.index t (0 : Fin 2) * 1 + 1 * 0 = 0
      omega
    | ⟨1, _⟩ =>
      show win0_1.index t (1 : Fin 2) * 128 + 1 * k.val = k.val
      omega
  · show V m c main_v1 (((cfg0.win 2).blk t).view.emb (ix2 (0 : Fin 1) (j 1))) = V m c main_v1 (ix2 (0 : Fin 1) (0 : Fin 1))
    refine congrArg (V m c main_v1) (funext fun a => Fin.ext ?_)
    have hj : (j 1).val < 1 := (j 1).isLt
    match a with
    | ⟨0, _⟩ =>
      show win0_2.index t (0 : Fin 2) * 1 + 1 * 0 = 0
      omega
    | ⟨1, _⟩ =>
      show win0_2.index t (1 : Fin 2) * 1 + 1 * (j 1).val = 0
      omega

/-- An entry of the column is in point t's block exactly when each coordinate is in the block's range. -/
theorem mem_blk (t : Fin cfg0.N) (i : S2000000x1.Idx) :
    i ∈ ((cfg0.win 3).blk t).view.set
      ↔ ∀ a : Fin 2, win0_3.index t a * S8000x1.size a ≤ (i a).val ∧ (i a).val < win0_3.index t a * S8000x1.size a + S8000x1.size a := by
  show i ∈ ((View.whole main_v2).slice (win0_3.rect t)).set ↔ _
  rw [View.set_slice_whole, Rect.mem_set_unit]
  exact Iff.rfl

/-- The blocks tile the column: row i is in the block of point i / 8000. -/
theorem cover (i : S2000000x1.Idx) :
    ∃ t : Fin cfg0.N, (cfg0.win 3).flush t = true ∧ i ∈ ((cfg0.win 3).blk t).view.set := by
  have hN : grid0.N = 250 := N_0
  have hi0 : (i 0).val < 2000000 := (i 0).isLt
  have hi1 : (i 1).val < 1 := (i 1).isLt
  have hlt : (i 0).val / 8000 < grid0.N := by rw [hN]; omega
  obtain ⟨e0, e1, e2, e3, e4, e5, e6, e7⟩ := idx_facts ⟨(i 0).val / 8000, hlt⟩
  refine ⟨⟨(i 0).val / 8000, hlt⟩, flush0_3 _, ?_⟩
  rw [mem_blk]
  intro a
  match a with
  | ⟨0, _⟩ =>
    show win0_3.index ⟨(i 0).val / 8000, hlt⟩ (0 : Fin 2) * 8000 ≤ (i 0).val
      ∧ (i 0).val < win0_3.index ⟨(i 0).val / 8000, hlt⟩ (0 : Fin 2) * 8000 + 8000
    rw [e6]
    show (i 0).val / 8000 * 8000 ≤ (i 0).val ∧ (i 0).val < (i 0).val / 8000 * 8000 + 8000
    omega
  | ⟨1, _⟩ =>
    show win0_3.index ⟨(i 0).val / 8000, hlt⟩ (1 : Fin 2) * 1 ≤ (i 1).val
      ∧ (i 1).val < win0_3.index ⟨(i 0).val / 8000, hlt⟩ (1 : Fin 2) * 1 + 1
    rw [e7]
    omega

/-- After the last point the output array holds the column. -/
theorem final (c : Dev nD) :
    (dats m 0 c).arrAt 3 cfg0.N = chargeRow (V m c main_arg1) (V m c main_v0) (V m c main_v1) :=
  (dats m 0 c).arrAt_eq_of_cover 3 _ (fun t _ => flushed_eq m c t) cover

/-- The weight row the region finds is W relaid from [128, 1] to [1, 128]. -/
theorem V_row (c : Dev nD) :
    (V m c main_v0 : S1x128.Idx → EReal) = shapeCast S1x128 (m ((c : Thread nD τ).loc main_arg2)) shapeCasts_S128x1_S1x128 := by
  show StableHlo.after hostOps0 (fun b => m (c, b)) (Proc.devRef .tc main_v0) = _
  after_results
  rfl

/-- The 1 × 1 bias the region finds is b relaid from [1] to [1, 1]. -/
theorem V_bias (c : Dev nD) :
    (V m c main_v1 : S1x1.Idx → EReal) = shapeCast S1x1 (m ((c : Thread nD τ).loc main_arg3)) shapeCasts_S1_S1x1 := by
  show StableHlo.after hostOps0 (fun b => m (c, b)) (Proc.devRef .tc main_v1) = _
  after_results
  rfl

/-- So the column is `charge` of the arguments. -/
theorem column_eq (c : Dev nD) :
    chargeRow (V m c main_arg1) (V m c main_v0) (V m c main_v1)
      = charge (m ((c : Thread nD τ).loc main_arg1)) (m ((c : Thread nD τ).loc main_arg2)) (m ((c : Thread nD τ).loc main_arg3)) := by
  rw [V_main_arg1]
  refine chargeRow_eq _ _ _ _ _ (fun k => ?_) ?_
  · rw [V_row]
    exact shapeCast_a1_1a_apply _ _ (0 : Fin 1) k
  · rw [V_bias]
    exact shapeCast_a_1a_apply _ _ (0 : Fin 1) (0 : Fin 1)

end Cert.Charge.Kernel

end
-- ==== Proof.KernelRun.lean ====
/-
  The kernel program's result. After the region the array of charges holds the column `charge` of the arguments,
  and the atom ids are as launched; the lines after the region are the correction applied to that column.
-/
import proofs.«100045_j5918464934539_1_alg».proof.Proof.KernelValue

noncomputable section

namespace Cert.Charge.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

set_option maxHeartbeats 2000000 in
/-- The program's result: the correction applied to the column. -/
theorem tail_eq (c : Dev nD) :
    Pipeline.afterTail₀ cfgs (dats m) 0 (V0 m) [hostOps1] c main_v22
      = neutralise (m ((c : Thread nD τ).loc main_arg0))
          (charge (m ((c : Thread nD τ).loc main_arg1)) (m ((c : Thread nD τ).loc main_arg2)) (m ((c : Thread nD τ).loc main_arg3))) := by
  have hq : Pipeline.withArrays (cfgs 0).spec c (V0 m c) (fun w => (dats m 0 c).arrAt w (cfgs 0).N) (Proc.devRef .tc main_v2)
      = charge (m ((c : Thread nD τ).loc main_arg1)) (m ((c : Thread nD τ).loc main_arg2)) (m ((c : Thread nD τ).loc main_arg3)) :=
    (Pipeline.withArrays_arr spec0 launch0.win.arr_inj c _ _ 3).trans ((final m c).trans (column_eq m c))
  have hi : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  unfold Pipeline.afterTail₀
  show StableHlo.after hostOps1 _ (Proc.devRef .tc main_v22) = _
  refine Eq.trans ?_ (congrArg₂ neutralise hi hq)
  after_results_simp
  rfl

/-- The run, read: every weakly fair execution ends with the result at the correction applied to the column of
    charges of the arguments, and the arguments as launched. -/
theorem run : θ_run defs (onTc (τ := τ) (main (F := Ideal))) ⟨m, fun _ => 0, ρ⟩ fun r => ∀ c : Dev nD,
      r.2.mem ((c : Thread nD τ).loc main_v22)
        = neutralise (m ((c : Thread nD τ).loc main_arg0))
            (charge (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v22 (Pipeline.mem_restRefs_of main_v22 (by decide) (by decide))).trans (tail_eq m c),
     ((h c).2 main_arg0 (Pipeline.mem_restRefs_of main_arg0 (by decide) (by decide))).trans (W_main_arg0 m (dats m) c),
     ((h c).1 0).trans (((dats m 0 c).arrAt_in 0 rfl _).trans ((A_eq m c 0).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.Charge.Kernel

end
-- ==== Proof.lean ====
/-
  Neutralised atomic charges: the kernel program against its plain reference, over the extended reals.

  Both programs compute, for each of 2000000 atoms, the charge q i = (sum over k < 128 of p1[i, k] * W[k, 0]) + b[0],
  and then take from it the mean charge of the atom's molecule (the molecule's total over its atom count, the count
  taken as one for a molecule with no atom). The reference forms the charges by one contraction of p1 with W and a
  broadcast bias. The kernel program forms them 8000 atoms at a time: each grid point multiplies its 8000 rows of p1
  by the weight row entry by entry, adds up each row, and adds the bias; the 250 blocks it writes back tile the
  column of charges. Row by row the two are the same finite sum of the same products, in whatever order, so the two
  columns of charges are one function of the arguments (`Cert.Charge.charge`), with no appeal to the inputs being
  finite. From there on the two programs apply the same correction, written once (`Cert.Charge.neutralise`), to
  equal columns.

  The three frame claims are the programs' runs with the result dropped; the kernel's idealized text is its own
  text read at the extended reals, so there is nothing to preserve.
-/
import proofs.«100045_j5918464934539_1_alg».proof.Defs
import proofs.«100045_j5918464934539_1_alg».proof.Proof.Gen.Kernel
import proofs.«100045_j5918464934539_1_alg».proof.Proof.Gen.Kernel.Skeleton
import proofs.«100045_j5918464934539_1_alg».proof.Proof.Gen.Kernel.Launch
import proofs.«100045_j5918464934539_1_alg».proof.Proof.Gen.Kernel.Points
import proofs.«100045_j5918464934539_1_alg».proof.Proof.Gen.Kernel.Frame
import proofs.«100045_j5918464934539_1_alg».proof.Proof.Gen.KernelIdeal
import proofs.«100045_j5918464934539_1_alg».proof.Proof.Gen.KernelIdeal.Skeleton
import proofs.«100045_j5918464934539_1_alg».proof.Proof.Gen.KernelIdeal.Launch
import proofs.«100045_j5918464934539_1_alg».proof.Proof.Gen.KernelIdeal.Points
import proofs.«100045_j5918464934539_1_alg».proof.Proof.Gen.KernelIdeal.Frame
import proofs.«100045_j5918464934539_1_alg».proof.Proof.Gen.ReferenceIdeal
import proofs.«100045_j5918464934539_1_alg».proof.Proof.Gen.ReferenceIdeal.Run
import proofs.«100045_j5918464934539_1_alg».proof.Proof.Gen.ReferenceIdeal.Read
import proofs.«100045_j5918464934539_1_alg».proof.Proof.Gen.Pre_finite_inputs
import proofs.«100045_j5918464934539_1_alg».proof.Proof.RefBridge
import proofs.«100045_j5918464934539_1_alg».proof.Proof.KernelRun
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel program and its idealized text. -/
theorem preserves : Cert.preserves_Kernel_KernelIdeal := trivial

/-- From memories agreeing on the arguments both programs end at the correction applied to the column of charges of
    those arguments. -/
theorem algebraic : Cert.algebraic_KernelIdeal_ReferenceIdeal := by
  intro m ρ m' ρ' _ hagree
  refine ⟨fun c => Cert.Charge.neutralise (m ((c.tc : Thread Cert.KernelIdeal.nD Cert.KernelIdeal.τ).loc Cert.KernelIdeal.main_arg0))
      (Cert.Charge.charge (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))),
    Cert.Charge.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.Charge.Ref.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
